-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048x5504 : Shape := ⟨3, ![8, 2048, 5504]⟩
abbrev S8x5504x2048 : Shape := ⟨3, ![8, 5504, 2048]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x5504 : S_.BroadcastsInDim S8x2048x5504 (![] : Fin 0 → Fin S8x2048x5504.rank)
  reducesTo_S8x2048x5504_S_d0_1_2 : S8x2048x5504.ReducesTo [0, 1, 2] S_
  bcast_S_S8x5504x2048 : S_.BroadcastsInDim S8x5504x2048 (![] : Fin 0 → Fin S8x5504x2048.rank)
  reducesTo_S8x5504x2048_S_d0_1_2 : S8x5504x2048.ReducesTo [0, 1, 2] S_

variable [Facts]

def fn_part1 {F : FTy → Type} [FloatOps F] (main_v13 : IVec S_ 1) (main_v16 : IVec S8x5504x2048 1) : IVec S_ 1 :=
  let main_c_5 : IVec S_ 1 := constantI S_ 1 1#1
  let main_v17 : IVec S_ 1 := (fun x v => Host.reduce IntOp.andi x v reducesTo_S8x5504x2048_S_d0_1_2 h_S_) main_v16 main_c_5
  let main_v18 : IVec S_ 1 := andi main_v13 main_v17
  main_v18

def fn {F : FTy → Type} [FloatOps F] (main_arg0 : FVec F S16384x2048 .f32) (main_arg1 : FVec F S8x2048x5504 .f32) (main_arg2 : FVec F S8x2048x5504 .f32) (main_arg3 : FVec F S8x5504x2048 .f32) (main_arg4 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x5504 .f32 := Host.absf main_arg1
  let main_cst_0 : FVec F S_ .f32 := constant S_ .f32 0x7F800000#32
  let main_v5 : FVec F S8x2048x5504 .f32 := broadcastInDim S8x2048x5504 ![] bcast_S_S8x2048x5504 main_cst_0
  let main_v6 : IVec S8x2048x5504 1 := cmpf .olt main_v4 main_v5
  let main_c_1 : IVec S_ 1 := constantI S_ 1 1#1
  let main_v7 : IVec S_ 1 := (fun x v => Host.reduce IntOp.andi x v reducesTo_S8x2048x5504_S_d0_1_2 h_S_) main_v6 main_c_1
  let main_v8 : IVec S_ 1 := andi main_v3 main_v7
  let main_v9 : FVec F S8x2048x5504 .f32 := Host.absf main_arg2
  let main_cst_2 : FVec F S_ .f32 := constant S_ .f32 0x7F800000#32
  let main_v10 : FVec F S8x2048x5504 .f32 := broadcastInDim S8x2048x5504 ![] bcast_S_S8x2048x5504 main_cst_2
  let main_v11 : IVec S8x2048x5504 1 := cmpf .olt main_v9 main_v10
  let main_c_3 : IVec S_ 1 := constantI S_ 1 1#1
  let main_v12 : IVec S_ 1 := (fun x v => Host.reduce IntOp.andi x v reducesTo_S8x2048x5504_S_d0_1_2 h_S_) main_v11 main_c_3
  let main_v13 : IVec S_ 1 := andi main_v8 main_v12
  let main_v14 : FVec F S8x5504x2048 .f32 := Host.absf main_arg3
  let main_cst_4 : FVec F S_ .f32 := constant S_ .f32 0x7F800000#32
  let main_v15 : FVec F S8x5504x2048 .f32 := broadcastInDim S8x5504x2048 ![] bcast_S_S8x5504x2048 main_cst_4
  let main_v16 : IVec S8x5504x2048 1 := cmpf .olt main_v14 main_v15
  fn_part1 (F := F) main_v13 main_v16
-- ==== Kernel.lean ====
abbrev S16384x2048 : Shape := ⟨2, ![16384, 2048]⟩
abbrev S8x2048x5504 : Shape := ⟨3, ![8, 2048, 5504]⟩
abbrev S8x5504x2048 : Shape := ⟨3, ![8, 5504, 2048]⟩
abbrev S8 : Shape := ⟨1, ![8]⟩
abbrev S8x2048x2048 : Shape := ⟨3, ![8, 2048, 2048]⟩
abbrev S_ : Shape := ⟨0, ![]⟩
abbrev S8x2048x5632 : Shape := ⟨3, ![8, 2048, 5632]⟩
abbrev S8x5632x2048 : Shape := ⟨3, ![8, 5632, 2048]⟩
abbrev S1x1024x2048 : Shape := ⟨3, ![1, 1024, 2048]⟩
abbrev S1x2048x128 : Shape := ⟨3, ![1, 2048, 128]⟩
abbrev S1x128x2048 : Shape := ⟨3, ![1, 128, 2048]⟩
abbrev S1024x2048 : Shape := ⟨2, ![1024, 2048]⟩
abbrev S2048x128 : Shape := ⟨2, ![2048, 128]⟩
abbrev S1024x128 : Shape := ⟨2, ![1024, 128]⟩
abbrev S128x2048 : Shape := ⟨2, ![128, 2048]⟩

abbrev nBuf : Space → Nat
  | .hbm => 21
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S8x2048x5504, .f32⟩
  | .hbm, ⟨2, _⟩ => ⟨S8x2048x5504, .f32⟩
  | .hbm, ⟨3, _⟩ => ⟨S8x5504x2048, .f32⟩
  | .hbm, ⟨4, _⟩ => ⟨S8, .i32⟩
  | .hbm, ⟨5, _⟩ => ⟨S8x2048x2048, .f32⟩
  | .hbm, ⟨6, _⟩ => ⟨S8x2048x2048, .bf16⟩
  | .hbm, ⟨7, _⟩ => ⟨S8x2048x5504, .bf16⟩
  | .hbm, ⟨8, _⟩ => ⟨S_, .i32⟩
  | .hbm, ⟨9, _⟩ => ⟨S_, .bf16⟩
  | .hbm, ⟨10, _⟩ => ⟨S8x2048x5632, .bf16⟩
  | .hbm, ⟨11, _⟩ => ⟨S8x2048x5504, .bf16⟩
  | .hbm, ⟨12, _⟩ => ⟨S_, .i32⟩
  | .hbm, ⟨13, _⟩ => ⟨S_, .bf16⟩
  | .hbm, ⟨14, _⟩ => ⟨S8x2048x5632, .bf16⟩
  | .hbm, ⟨15, _⟩ => ⟨S8x5504x2048, .bf16⟩
  | .hbm, ⟨16, _⟩ => ⟨S_, .i32⟩
  | .hbm, ⟨17, _⟩ => ⟨S_, .bf16⟩
  | .hbm, ⟨18, _⟩ => ⟨S8x5632x2048, .bf16⟩
  | .hbm, ⟨19, _⟩ => ⟨S8x2048x2048, .f32⟩
  | .hbm, ⟨20, _⟩ => ⟨S16384x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x1024x2048, .f32⟩
  | .local _ .vmem, ⟨9, _⟩ => ⟨S1x1024x2048, .f32⟩
  | .local _ .vmem, ⟨10, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 44], ![false, false, false]⟩

def k0_cond2 (i : grid0.Coords) : BitVec 1 :=
  let arg2 : BitVec 32 := BitVec.ofNat 32 (i 2).val
  let c43_i32 : BitVec 32 := 43#32
  let v23 : BitVec 1 := Scalar.cmpi .eq arg2 c43_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S16384x2048_S8x2048x2048 : S16384x2048.ShapeCasts S8x2048x2048
  bitsLt_bf16_f32 : FTy.bits .bf16 < FTy.bits .f32
  pads_S8x2048x5504_S8x2048x5632_000_000_01280 : S8x2048x5504.Pads (![0, 0, 0] : Fin 3 → Nat) ![0, 0, 128] ![0, 0, 0] S8x2048x5632
  h_S_ : 0 < S_.numel
  pads_S8x5504x2048_S8x5632x2048_000_01280_000 : S8x5504x2048.Pads (![0, 0, 0] : Fin 3 → Nat) ![0, 128, 0] ![0, 0, 0] S8x5632x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S1024x2048_S1x1024x2048 : S1024x2048.ShapeCasts S1x1024x2048
  shapeCasts_S8x2048x2048_S16384x2048 : S8x2048x2048.ShapeCasts S16384x2048
  dot_S1024x2048_S2048x128_S1024x128_1_0_0_1_n_n_wf : DotDims.WF S1024x2048 S2048x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .bf16 = 32 ∨ (Rect.block (s := S8x2048x2048) S1x1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x5632.size a
  hwx0_1 : ∀ i : grid0.Coords, EltTy.bits .bf16 = 32 ∨ (Rect.block (s := S8x2048x5632) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x5632.size a
  hwx0_2 : ∀ i : grid0.Coords, EltTy.bits .bf16 = 32 ∨ (Rect.block (s := S8x2048x5632) S1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S8x5632x2048.size a
  hwx0_3 : ∀ i : grid0.Coords, EltTy.bits .bf16 = 32 ∨ (Rect.block (s := S8x5632x2048) S1x128x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x2048x2048.size a
  hwx0_4 : ∀ i : grid0.Coords, EltTy.bits .f32 = 32 ∨ (Rect.block (s := S8x2048x2048) S1x1024x2048.size (cc0_transform_4 i) (hinb0_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8x2048x5504 : Shape := ⟨3, ![8, 2048, 5504]⟩
abbrev S8x5504x2048 : Shape := ⟨3, ![8, 5504, 2048]⟩
abbrev S8 : Shape := ⟨1, ![8]⟩
abbrev S8x2048x2048 : Shape := ⟨3, ![8, 2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048x5504, .f32⟩
  | .hbm, ⟨2, _⟩ => ⟨S8x2048x5504, .f32⟩
  | .hbm, ⟨3, _⟩ => ⟨S8x5504x2048, .f32⟩
  | .hbm, ⟨4, _⟩ => ⟨S8, .i32⟩
  | .hbm, ⟨5, _⟩ => ⟨S8x2048x2048, .f32⟩
  | .hbm, ⟨6, _⟩ => ⟨S8x2048x5504, .f32⟩
  | .hbm, ⟨7, _⟩ => ⟨S8x2048x5504, .f32⟩
  | .hbm, ⟨8, _⟩ => ⟨S8x2048x5504, .f32⟩
  | .hbm, ⟨9, _⟩ => ⟨S8x2048x5504, .f32⟩
  | .hbm, ⟨10, _⟩ => ⟨S_, .f32⟩
  | .hbm, ⟨11, _⟩ => ⟨S8x2048x5504, .f32⟩
  | .hbm, ⟨12, _⟩ => ⟨S8x2048x5504, .f32⟩
  | .hbm, ⟨13, _⟩ => ⟨S_, .f32⟩
  | .hbm, ⟨14, _⟩ => ⟨S8x2048x5504, .f32⟩
  | .hbm, ⟨15, _⟩ => ⟨S8x2048x5504, .f32⟩
  | .hbm, ⟨16, _⟩ => ⟨S8x2048x5504, .f32⟩
  | .hbm, ⟨17, _⟩ => ⟨S8x2048x5504, .f32⟩
  | .hbm, ⟨18, _⟩ => ⟨S8x2048x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S_S8x2048x5504 : S_.BroadcastsInDim S8x2048x5504 (![] : Fin 0 → Fin S8x2048x5504.rank)
  shapeCasts_S8x2048x2048_S16384x2048 : S8x2048x2048.ShapeCasts S16384x2048
  dot_S8x2048x2048_S8x2048x5504_S8x2048x5504_2_1_1_2_0_0_wf : DotDims.WF S8x2048x2048 S8x2048x5504 S8x2048x5504 [2] [1] [1] [2] [0] [0]
  dot_S8x2048x5504_S8x5504x2048_S8x2048x2048_2_1_1_2_0_0_wf : DotDims.WF S8x2048x5504 S8x5504x2048 S8x2048x2048 [2] [1] [1] [2] [0] [0]

variable [Facts₀]

def dot_S8x2048x2048_S8x2048x5504_S8x2048x5504_2_1_1_2_0_0 : DotDims S8x2048x2048 S8x2048x5504 S8x2048x5504 where
  lhsContracting := [2]
  rhsContracting := [1]
  lhsNonContracting := [1]
  rhsNonContracting := [2]
  lhsBatch := [0]
  rhsBatch := [0]
  wf := dot_S8x2048x2048_S8x2048x5504_S8x2048x5504_2_1_1_2_0_0_wf
def dot_S8x2048x5504_S8x5504x2048_S8x2048x2048_2_1_1_2_0_0 : DotDims S8x2048x5504 S8x5504x2048 S8x2048x2048 where
  lhsContracting := [2]
  rhsContracting := [1]
  lhsNonContracting := [1]
  rhsNonContracting := [2]
  lhsBatch := [0]
  rhsBatch := [0]
  wf := dot_S8x2048x5504_S8x5504x2048_S8x2048x2048_2_1_1_2_0_0_wf

class Facts : Prop extends Facts₀ where

variable [Facts]
-- ==== Proof.Spec.lean ====
/-
  The expert MLP as a function of its arrays, index by index, over the extended reals.

  Tokens are grouped by expert: `X e t h` is token `t` of expert `e`. With the gate, up and down weights `Gw`, `Uw`,
  `Dw` (the inter axis padded from 5504 to 5632 = 44 * 128 positions) the gate and up projections at inter position `k`
  are `g = ∑ h, X e t h * Gw e h k` and `u = ∑ h, X e t h * Uw e h k`, the activation is `(g * logistic g) * u`, and the
  result at hidden position `h` sums `act k * Dw e k h` over the inter positions. The kernel forms that sum tile by tile,
  128 inter positions at a time, adding each tile to what the tiles before it left; the reference sums the 5504
  unpadded positions at once. Addition of extended reals is commutative and associative, so the order and grouping do
  not matter, and a padded position contributes `act k * 0 = 0` whatever `act k` is: no finiteness is needed.
-/
import Idealize.ShloMosaic.PureOps.Ideal
import Idealize.ShloMosaic.Lib.ValueIdx

noncomputable section

namespace Cert.MlpSpec

open Idealize.ShloMosaic Idealize.ShloMosaic.ValueIdx

/-- Tokens by expert: [8, 2048, 2048]. -/
abbrev SX : Shape := ⟨3, ![8, 2048, 2048]⟩
/-- Padded gate / up weights: [8, 2048, 5632]. -/
abbrev SW : Shape := ⟨3, ![8, 2048, 5632]⟩
/-- Padded down weights: [8, 5632, 2048]. -/
abbrev SD : Shape := ⟨3, ![8, 5632, 2048]⟩

/-- Index (e, t, h) of the token array, total in its coordinates (each reduced modulo its extent). -/
def iX (e t h : ℕ) : SX.Idx :=
  ix3 (⟨e % 8, Nat.mod_lt _ (by decide)⟩ : Fin 8) (⟨t % 2048, Nat.mod_lt _ (by decide)⟩ : Fin 2048)
    (⟨h % 2048, Nat.mod_lt _ (by decide)⟩ : Fin 2048)
/-- Index (e, h, k) of a padded gate / up weight array. -/
def iW (e h k : ℕ) : SW.Idx :=
  ix3 (⟨e % 8, Nat.mod_lt _ (by decide)⟩ : Fin 8) (⟨h % 2048, Nat.mod_lt _ (by decide)⟩ : Fin 2048)
    (⟨k % 5632, Nat.mod_lt _ (by decide)⟩ : Fin 5632)
/-- Index (e, k, h) of the padded down weight array. -/
def iD (e k h : ℕ) : SD.Idx :=
  ix3 (⟨e % 8, Nat.mod_lt _ (by decide)⟩ : Fin 8) (⟨k % 5632, Nat.mod_lt _ (by decide)⟩ : Fin 5632)
    (⟨h % 2048, Nat.mod_lt _ (by decide)⟩ : Fin 2048)

variable (X : SX.Idx → EReal) (Gw Uw : SW.Idx → EReal) (Dw : SD.Idx → EReal)

/-- A projection of token (e, t) onto inter position k: the sum over the hidden axis. -/
def proj (W : SW.Idx → EReal) (e t k : ℕ) : EReal := ∑ h : Fin 2048, X (iX e t h.val) * W (iW e h.val k)

/-- The SwiGLU activation at (e, t, k): silu of the gate projection times the up projection. -/
def act (e t k : ℕ) : EReal :=
  (proj X Gw e t k * Ideal.logistic (proj X Gw e t k)) * proj X Uw e t k

/-- What inter tile `q` (positions 128 q … 128 q + 127) adds to the result at (e, t, h). -/
def tile (e t q h : ℕ) : EReal :=
  ∑ j : Fin 128, act X Gw Uw e t (q * 128 + j.val) * Dw (iD e (q * 128 + j.val) h)

/-- The result at (e, t, h) after the tiles 0 … q. -/
def upto (e t q h : ℕ) : EReal := ∑ r ∈ Finset.range (q + 1), tile X Gw Uw Dw e t r h

theorem upto_zero (e t h : ℕ) : upto X Gw Uw Dw e t 0 h = tile X Gw Uw Dw e t 0 h := by
  unfold upto; rw [Finset.sum_range_one]

theorem upto_succ (e t q h : ℕ) :
    upto X Gw Uw Dw e t (q + 1) h = upto X Gw Uw Dw e t q h + tile X Gw Uw Dw e t (q + 1) h := by
  unfold upto; rw [Finset.sum_range_succ]

/-- Sums over consecutive tiles of width `b` are one sum over the range they fill. -/
theorem sum_tiles {M : Type*} [AddCommMonoid M] (f : ℕ → M) (b : ℕ) :
    ∀ n : ℕ, ∑ r ∈ Finset.range n, ∑ j : Fin b, f (r * b + j.val) = ∑ k ∈ Finset.range (n * b), f k
  | 0 => by simp
  | n + 1 => by
    rw [Finset.sum_range_succ, sum_tiles f b n, Nat.succ_mul, Finset.sum_range_add]
    exact congrArg _ (Finset.sum_range fun x => f (n * b + x)).symm

/-- After all 44 tiles the result is the sum over the 5504 unpadded inter positions, when the down weights' padded rows
    are zero: a padded position adds `act * 0 = 0`. -/
theorem upto_last (e t h : ℕ) (hpad : ∀ k, 5504 ≤ k → k < 5632 → Dw (iD e k h) = 0) :
    upto X Gw Uw Dw e t 43 h = ∑ k : Fin 5504, act X Gw Uw e t k.val * Dw (iD e k.val h) := by
  unfold upto tile
  rw [sum_tiles (fun k => act X Gw Uw e t k * Dw (iD e k h)) 128 44]
  rw [show 44 * 128 = 5504 + 128 from rfl, Finset.sum_range_add, Finset.sum_range]
  rw [Finset.sum_eq_zero (s := Finset.range 128), add_zero]
  intro x hx
  rw [Finset.mem_range] at hx
  rw [hpad (5504 + x) (Nat.le_add_right _ _) (by omega), mul_zero]

end Cert.MlpSpec

end
-- ==== Proof.LibPayIdx.lean ====
/-
  A kernel body's layout and contraction operations READ AT AN INDEX GIVEN BY COORDINATES, at the ideal values (floats are
  extended reals): the operations a body of the shape "flatten the two leading axes, multiply on the matrix unit into a zero
  accumulator, unflatten, normalise per row" meets beside the pointwise ones. Every lemma is general in the extents.
  • Reshapes: `[a, b, k]` to `[m, k]` and back (row `p·b + q`), `[a, b]` to `[a, b, 1]`.
  • Broadcasts to `[a, b, n]`: of one row `[1, 1, n]`, of one slab `[1, b, n]`, of one column `[1, b, 1]`.
  • A matrix product `[m, k] × [k, n]` into the zero accumulator: the sum over the contracted coordinate; and the same
    between the two reshapes, read at `(p, q, c)`.
  • A sum over one axis from the zero accumulator: over the last axis of `[a, b, n]`, over the first of `[a, b, 1]`.
-/
import Idealize.ShloMosaic.Lib.ValueLayout
import Idealize.ShloMosaic.PureOps.Ideal.Laws

noncomputable section

open scoped BigOperators

namespace Cert.KernelIdeal.Hand

open Idealize.ShloMosaic Idealize.ShloMosaic.ValueIdx

variable {α : Type}

/-! ## Reshapes -/

/-- An `[a, b, k]` array cast to `[m, k]` reads, at row `i = p·b + q` and column `c`, the operand at `(p, q, c)`. -/
theorem shapeCast_abk_mk_apply {a b k m : ℕ} (x : (⟨3, ![a, b, k]⟩ : Shape).Idx → α)
    (h : (⟨3, ![a, b, k]⟩ : Shape).ShapeCasts ⟨2, ![m, k]⟩) (p : Fin a) (q : Fin b) (c : Fin k) (i : Fin m)
    (hi : i.val = p.val * b + q.val) :
    shapeCast ⟨2, ![m, k]⟩ x h (ix2 i c) = x (ix3 p q c) :=
  shapeCast_apply x h _ _ (by
    rw [Shape.rowMajor_val_three, Shape.rowMajor_val_two]
    show (p.val * b + q.val) * k + c.val = i.val * k + c.val
    rw [hi])

/-- An `[m, k]` array cast to `[a, b, k]` reads, at `(p, q, c)`, the operand at row `i = p·b + q` and column `c`. -/
theorem shapeCast_mk_abk_apply {a b k m : ℕ} (x : (⟨2, ![m, k]⟩ : Shape).Idx → α)
    (h : (⟨2, ![m, k]⟩ : Shape).ShapeCasts ⟨3, ![a, b, k]⟩) (p : Fin a) (q : Fin b) (c : Fin k) (i : Fin m)
    (hi : i.val = p.val * b + q.val) :
    shapeCast ⟨3, ![a, b, k]⟩ x h (ix3 p q c) = x (ix2 i c) :=
  shapeCast_apply x h _ _ (by
    rw [Shape.rowMajor_val_two, Shape.rowMajor_val_three]
    show i.val * k + c.val = (p.val * b + q.val) * k + c.val
    rw [hi])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-! ## Broadcasts to `[a, b, n]` -/

/-- A `[1, 1, n]` array broadcast to `[a, b, n]` reads, at `(p, q, c)`, the operand's one row at `c`. -/
theorem broadcastTo_11c_abc_apply {a b n : ℕ} (v : (⟨3, ![1, 1, n]⟩ : Shape).Idx → α)
    (h : (⟨3, ![1, 1, n]⟩ : Shape).Broadcasts ⟨3, ![a, b, n]⟩) (p : Fin a) (q : Fin b) (c : Fin n) :
    broadcastTo ⟨3, ![a, b, n]⟩ v h (ix3 p q c) = v (ix3 (0 : Fin 1) (0 : Fin 1) c) := by
  refine broadcastTo_apply v h (ix3 p q c) (ix3 (0 : Fin 1) (0 : Fin 1) c) fun ax => ?_
  match ax with
  | ⟨0, _⟩ => rfl
  | ⟨1, _⟩ => rfl
  | ⟨2, _⟩ =>
    show c.val = if n = 1 then 0 else c.val
    split
    · have := c.isLt; omega
    · rfl

/-- A `[1, b, n]` array broadcast to `[a, b, n]` reads, at `(p, q, c)`, the operand's one slab at `(q, c)`. -/
theorem broadcastTo_1bc_abc_apply {a b n : ℕ} (v : (⟨3, ![1, b, n]⟩ : Shape).Idx → α)
    (h : (⟨3, ![1, b, n]⟩ : Shape).Broadcasts ⟨3, ![a, b, n]⟩) (p : Fin a) (q : Fin b) (c : Fin n) :
    broadcastTo ⟨3, ![a, b, n]⟩ v h (ix3 p q c) = v (ix3 (0 : Fin 1) q c) := by
  refine broadcastTo_apply v h (ix3 p q c) (ix3 (0 : Fin 1) q c) fun ax => ?_
  match ax with
  | ⟨0, _⟩ => rfl
  | ⟨1, _⟩ =>
    show q.val = if b = 1 then 0 else q.val
    split
    · have := q.isLt; omega
    · rfl
  | ⟨2, _⟩ =>
    show c.val = if n = 1 then 0 else c.val
    split
    · have := c.isLt; omega
    · rfl

/-- A `[1, b, 1]` array broadcast to `[a, b, n]` reads, at `(p, q, c)`, the operand's one column at `q`. -/
theorem broadcastTo_1b1_abc_apply {a b n : ℕ} (v : (⟨3, ![1, b, 1]⟩ : Shape).Idx → α)
    (h : (⟨3, ![1, b, 1]⟩ : Shape).Broadcasts ⟨3, ![a, b, n]⟩) (p : Fin a) (q : Fin b) (c : Fin n) :
    broadcastTo ⟨3, ![a, b, n]⟩ v h (ix3 p q c) = v (ix3 (0 : Fin 1) q (0 : Fin 1)) := by
  refine broadcastTo_apply v h (ix3 p q c) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-! ## A matrix product into the zero accumulator -/

/-- The product of an `m × k` by a `k × n` matrix on the matrix unit, accumulated into the zero splat, read at `(i, c)`: the
    sum over the contracted coordinate of the products of the entries. `w` is the dimension numbers' well-formedness, which a
    program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (i : Fin m) (c : Fin n) :
    matmul (⟨[1], [0], [0], [1], [], [], w⟩ : DotDims _ _ _) prec A B (constant (F := Ideal) ⟨2, ![m, n]⟩ .f32 0x00000000#32) (ix2 i c)
      = ∑ j : Fin k, A (ix2 i j) * B (ix2 j c) := by
  show FloatOps.matmul _ prec A B (constant (F := Ideal) ⟨2, ![m, n]⟩ .f32 0x00000000#32) (ix2 i c) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun j _ => ?_
  have c2 := contrEquiv1_symm_val
    (⟨[1], [0], [0], [1], [], [], w⟩ : DotDims ⟨2, ![m, k]⟩ ⟨2, ![k, n]⟩ ⟨2, ![m, n]⟩) k rfl rfl j
  have l2 : (⟨[1], [0], [0], [1], [], [], w⟩ : DotDims ⟨2, ![m, k]⟩ ⟨2, ![k, n]⟩ ⟨2, ![m, n]⟩).lhsIdx (ix2 i c)
      ((contrEquiv1 _ k rfl rfl).symm j) = ix2 i j := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 i c)
      ((contrEquiv1 _ k rfl rfl).symm j) = ix2 j c := by
    funext ax; apply Fin.ext
    match ax with
    | ⟨0, _⟩ => simp [DotDims.rhsIdx]; exact c2
    | ⟨1, _⟩ => simp [DotDims.rhsIdx]; rfl
  rw [l2, r2]

/-- The row-block product: an `[a, b, k]` array flattened to `[m, k]` (row `p·b + q`), multiplied by a `[k, n]` matrix into the
    zero accumulator, and unflattened to `[a, b, n]`, read at `(p, q, c)`: the sum over the contracted coordinate of the
    products of the entries of row `(p, q)` and column `c`. -/
theorem flat_matmul_apply {a b k n m : ℕ} {φ₁ φ₂ : FTy}
    (w : DotDims.WF ⟨2, ![m, k]⟩ ⟨2, ![k, n]⟩ ⟨2, ![m, n]⟩ [1] [0] [0] [1] [] [])
    (prec : Option ContractPrecision) (X : FVec Ideal ⟨3, ![a, b, k]⟩ φ₁) (W : FVec Ideal ⟨2, ![k, n]⟩ φ₂)
    (h1 : (⟨3, ![a, b, k]⟩ : Shape).ShapeCasts ⟨2, ![m, k]⟩) (h2 : (⟨2, ![m, n]⟩ : Shape).ShapeCasts ⟨3, ![a, b, n]⟩)
    (p : Fin a) (q : Fin b) (c : Fin n) (hlt : p.val * b + q.val < m) :
    shapeCast ⟨3, ![a, b, n]⟩
        (matmul (⟨[1], [0], [0], [1], [], [], w⟩ : DotDims _ _ _) prec (shapeCast ⟨2, ![m, k]⟩ X h1) W
          (constant (F := Ideal) ⟨2, ![m, n]⟩ .f32 0x00000000#32)) h2 (ix3 p q c)
      = ∑ j : Fin k, X (ix3 p q j) * W (ix2 j c) := by
  refine (shapeCast_mk_abk_apply _ h2 p q c ⟨_, hlt⟩ rfl).trans ?_
  refine (matmul_plain_zero_apply w prec _ W ⟨_, hlt⟩ c).trans ?_
  exact Finset.sum_congr rfl fun j _ =>
    congrArg (· * W (ix2 j c)) (shapeCast_abk_mk_apply X h1 p q j ⟨_, hlt⟩ rfl)

/-! ## A sum over one axis from the zero accumulator -/

/-- The sum over the LAST axis of an `[a, b, n]` array from the zero accumulator, read at `(p, q)`: the sum over that axis's
    coordinates. The accumulator's word is zero, which is the hypothesis as a printed program carries it. -/
theorem multiReduction_add_last_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ c : Fin n, src (ix3 p q c) := by
  refine (Ideal.multiReduction_add_single src 0x00000000#32 h hφ hacc (ix2 p q)).trans ?_
  refine Finset.sum_congr rfl fun c _ => congrArg src ?_
  funext ax; apply Fin.ext
  match ax with
  | ⟨0, _⟩ => rfl
  | ⟨1, _⟩ => rfl
  | ⟨2, _⟩ => rfl

/-- The sum over the FIRST axis of an `[a, b, 1]` array from the zero accumulator, read at `(q, u)`: the sum over that axis's
    coordinates. -/
theorem multiReduction_add_first_apply {a b : ℕ} (src : FVec Ideal ⟨3, ![a, b, 1]⟩ .f32)
    (h : (⟨3, ![a, b, 1]⟩ : Shape).Reduces [0] ⟨2, ![b, 1]⟩) (hφ : FKind.Formats .f32)
    (hacc : (0x00000000#32 : BitVec 32) = 0x00000000#32) (q : Fin b) (u : Fin 1) :
    multiReduction .add [0] ⟨2, ![b, 1]⟩ src 0x00000000#32 h hφ hacc (ix2 q u) = ∑ p : Fin a, src (ix3 p q u) := by
  refine (Ideal.multiReduction_add_single src 0x00000000#32 h hφ hacc (ix2 q u)).trans ?_
  refine Finset.sum_congr rfl fun p _ => congrArg src ?_
  funext ax; apply Fin.ext
  match ax with
  | ⟨0, _⟩ => rfl
  | ⟨1, _⟩ => rfl
  | ⟨2, _⟩ => rfl

end Cert.KernelIdeal.Hand

end
-- ==== Proof.Payload.lean ====
/-
  The kernel body's arithmetic at an index, over the extended reals.

  At one grid point the body holds a block `x` of 1024 tokens (all 2048 hidden positions), a 128-column block `wg`, `wu`
  of the gate and up weights, the matching 128-row block `wd` of the down weights, and the accumulator `acc`. It leaves
  `acc p h + ∑ j, ((g p j * logistic (g p j)) * u p j) * wd j h`, where `g p j = ∑ k, x p k * wg k j` and
  `u p j = ∑ k, x p k * wu k j`: two matrix products into the zero accumulator, the pointwise activation (whose change of
  float format is the identity here), a third matrix product into the zero accumulator, and one addition.
-/
import proofs.«145962_j30279519436987_2_alg».proof.Proof.Gen.KernelIdeal.Skeleton
import proofs.«145962_j30279519436987_2_alg».proof.Proof.LibPayIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.KernelIdeal.Hand

/-- A projection block: the token block times a 128-column weight block, on the matrix unit into the zero accumulator. -/
def projBlock (x : Vec Ideal S1x1024x2048 .bf16) (w : Vec Ideal S1x2048x128 .bf16) : FVec Ideal S1024x128 .f32 :=
  matmul dot_S1024x2048_S2048x128_S1024x128_1_0_0_1_n_n none
    (shapeCast S1024x2048 x shapeCasts_S1x1024x2048_S1024x2048 : FVec Ideal S1024x2048 .bf16)
    (shapeCast S2048x128 w shapeCasts_S1x2048x128_S2048x128 : FVec Ideal S2048x128 .bf16)
    (constant S1024x128 .f32 0x00000000#32)

/-- Row `p` of the token block times column `j` of a weight block: the sum over the hidden axis. -/
def rowDot (x : Vec Ideal S1x1024x2048 .bf16) (w : Vec Ideal S1x2048x128 .bf16) (p : Fin 1024) (j : Fin 128) : EReal :=
  ∑ k : Fin 2048, x (ix3 (0 : Fin 1) p k) * w (ix3 (0 : Fin 1) k j)

/-- Entry (p, j) of a projection block is that sum. -/
theorem projBlock_apply (x : Vec Ideal S1x1024x2048 .bf16) (w : Vec Ideal S1x2048x128 .bf16) (p : Fin 1024) (j : Fin 128) :
    projBlock x w (ix2 p j) = rowDot x w p j := by
  unfold projBlock rowDot
  refine (matmul_plain_zero_apply dot_S1024x2048_S2048x128_S1024x128_1_0_0_1_n_n_wf none _ _ p j).trans ?_
  refine Finset.sum_congr rfl fun k _ => ?_
  rw [shapeCast_1ab_ab_apply, shapeCast_1ab_ab_apply]

/-- The accumulate store's value is the accumulator plus the tile's product. -/
theorem pay2_eq (v3 : Vec Ideal S1x1024x2048 .bf16) (v5 v8 : Vec Ideal S1x2048x128 .bf16) (v14 : Vec Ideal S1024x2048 .f32)
    (v16 : Vec Ideal S1x128x2048 .bf16) :
    k0_pay2 (F := Ideal) v3 v5 v8 v14 v16
      = shapeCast S1024x2048 (addf v14 (matmul dot_S1024x128_S128x2048_S1024x2048_1_0_0_1_n_n none
          (truncf .bf16 (mulf (mulf (projBlock v3 v5) (logistic (projBlock v3 v5))) (projBlock v3 v8)) bitsLt_bf16_f32 : FVec Ideal S1024x128 .bf16)
          (shapeCast S128x2048 v16 shapeCasts_S1x128x2048_S128x2048 : FVec Ideal S128x2048 .bf16) (constant S1024x2048 .f32 0x00000000#32)))
          shapeCasts_S1024x2048_S1024x2048 := rfl

/-- The SwiGLU value at token p of the block and position j of the tile. -/
def swi (x : Vec Ideal S1x1024x2048 .bf16) (wg wu : Vec Ideal S1x2048x128 .bf16) (p : Fin 1024) (j : Fin 128) : EReal :=
  (rowDot x wg p j * Ideal.logistic (rowDot x wg p j)) * rowDot x wu p j

/-- The accumulate store's value at (p, h). -/
theorem pay2_apply (v3 : Vec Ideal S1x1024x2048 .bf16) (v5 v8 : Vec Ideal S1x2048x128 .bf16) (v14 : Vec Ideal S1024x2048 .f32)
    (v16 : Vec Ideal S1x128x2048 .bf16) (p : Fin 1024) (h : Fin 2048) :
    k0_pay2 (F := Ideal) v3 v5 v8 v14 v16 (ix2 p h)
      = v14 (ix2 p h) + ∑ j : Fin 128, swi v3 v5 v8 p j * v16 (ix3 (0 : Fin 1) j h) := by
  rw [pay2_eq, shapeCast_self]
  refine congrArg (v14 (ix2 p h) + ·) ?_
  refine (matmul_plain_zero_apply dot_S1024x128_S128x2048_S1024x2048_1_0_0_1_n_n_wf none _ _ p h).trans ?_
  refine Finset.sum_congr rfl fun j _ => ?_
  rw [shapeCast_1ab_ab_apply]
  refine congrArg (· * v16 (ix3 (0 : Fin 1) j h)) ?_
  show (projBlock v3 v5 (ix2 p j) * Ideal.logistic (projBlock v3 v5 (ix2 p j))) * projBlock v3 v8 (ix2 p j) = _
  rw [projBlock_apply, projBlock_apply]
  rfl

/-- The reset store's value is the zero block. -/
theorem pay1_apply (i : S1024x2048.Idx) : k0_pay1 (F := Ideal) i = 0 := by
  unfold k0_pay1
  rw [shapeCast_self]
  exact Ideal.ofBits_zero_f32

/-- The output store's value at (u, p, h), `u` the unit coordinate, is the accumulator at (p, h). -/
theorem pay3_apply (v26 : Vec Ideal S1024x2048 .f32) (u : Fin 1) (p : Fin 1024) (h : Fin 2048) :
    k0_pay3 (F := Ideal) v26 (ix3 u p h) = v26 (ix2 p h) := by
  unfold k0_pay3
  exact shapeCast_ab_1ab_apply v26 _ u p h

end Cert.KernelIdeal.Body

end
-- ==== Proof.Cases.lean ====
/-
  What the body leaves at a grid point, case by case, at any float instance.

  The inter axis is the innermost grid axis. At its first tile the body zeroes the accumulator and adds the tile's
  product to that zero; at a later tile it adds the tile's product to what the tile before left; at the last tile it
  also copies the accumulator into the output block. Each store covers its whole buffer, so what a buffer holds
  afterwards is the last store's value, and a load of a buffer just stored reads that store's value.
-/
import proofs.«145962_j30279519436987_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the accumulator ends at the zero block plus the tile's product. -/
theorem sout_A (c : Dev nD) (i : grid0.Coords) (arg3 : Memref sig .tc .vmem S1x1024x2048 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .bf16) (harg6 : arg6.IsWhole) (arg7 : Memref sig .tc .vmem S1x1024x2048 .f32) (harg7 : arg7.IsWhole) (arg8 : Memref sig .tc .vmem S1024x2048 .f32) (harg8 : arg8.IsWhole) (hc0 : cond0_0 i) (hc1 : ¬cond0_1 i)
    (x0 : Vec F S1x1024x2048 .bf16) (x1 : Vec F S1x2048x128 .bf16) (x2 : Vec F S1x2048x128 .bf16) (x3 : Vec F S1x128x2048 .bf16) :
    sout0_A_0 c i arg3 harg3 arg4 harg4 arg5 harg5 arg6 harg6 arg7 harg7 arg8 harg8 hc0 hc1 x0 x1 x2 x3 = k0_pay2 x0 x1 x2 (k0_pay1 (F := F)) x3 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x2048) hz2, View.readCov_unit_zero (S := S1024x2048) _ hz2]
  simp only [View.readAt_eq_ld, harg3.read_unread, harg4.read_unread, harg5.read_unread, harg6.read_unread, harg8.read_unread,
    View.ld_unit_zero (S := S1x1024x2048) hz3, View.ld_unit_zero (S := S1x2048x128) hz3, View.ld_unit_zero (S := S1x128x2048) hz3,
    View.ld_unit_zero (S := S1024x2048) hz2]

/-- A middle tile: the accumulator ends at what it held plus the tile's product. -/
theorem sout_B (c : Dev nD) (i : grid0.Coords) (arg3 : Memref sig .tc .vmem S1x1024x2048 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .bf16) (harg6 : arg6.IsWhole) (arg7 : Memref sig .tc .vmem S1x1024x2048 .f32) (harg7 : arg7.IsWhole) (arg8 : Memref sig .tc .vmem S1024x2048 .f32) (harg8 : arg8.IsWhole) (hc0 : ¬cond0_0 i) (hc1 : ¬cond0_1 i)
    (x0 : Vec F S1x1024x2048 .bf16) (x1 : Vec F S1x2048x128 .bf16) (x2 : Vec F S1x2048x128 .bf16) (x3 : Vec F S1x128x2048 .bf16) (xs0 : Vec F S1024x2048 .f32) :
    sout0_B_0 c i arg3 harg3 arg4 harg4 arg5 harg5 arg6 harg6 arg7 harg7 arg8 harg8 hc0 hc1 x0 x1 x2 x3 xs0 = k0_pay2 x0 x1 x2 xs0 x3 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x2048) hz2]
  simp only [View.readAt_eq_ld, harg3.read_unread, harg4.read_unread, harg5.read_unread, harg6.read_unread, harg8.read_unread,
    View.ld_unit_zero (S := S1x1024x2048) hz3, View.ld_unit_zero (S := S1x2048x128) hz3, View.ld_unit_zero (S := S1x128x2048) hz3,
    View.ld_unit_zero (S := S1024x2048) hz2]

/-- The last tile: the accumulator ends at what it held plus the tile's product, -/
theorem sout_C (c : Dev nD) (i : grid0.Coords) (arg3 : Memref sig .tc .vmem S1x1024x2048 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .bf16) (harg6 : arg6.IsWhole) (arg7 : Memref sig .tc .vmem S1x1024x2048 .f32) (harg7 : arg7.IsWhole) (arg8 : Memref sig .tc .vmem S1024x2048 .f32) (harg8 : arg8.IsWhole) (hc0 : ¬cond0_0 i) (hc1 : cond0_1 i)
    (x0 : Vec F S1x1024x2048 .bf16) (x1 : Vec F S1x2048x128 .bf16) (x2 : Vec F S1x2048x128 .bf16) (x3 : Vec F S1x128x2048 .bf16) (xs0 : Vec F S1024x2048 .f32) :
    sout0_C_0 c i arg3 harg3 arg4 harg4 arg5 harg5 arg6 harg6 arg7 harg7 arg8 harg8 hc0 hc1 x0 x1 x2 x3 xs0 = k0_pay2 x0 x1 x2 xs0 x3 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x2048) hz2]
  simp only [View.readAt_eq_ld, harg3.read_unread, harg4.read_unread, harg5.read_unread, harg6.read_unread, harg8.read_unread,
    View.ld_unit_zero (S := S1x1024x2048) hz3, View.ld_unit_zero (S := S1x2048x128) hz3, View.ld_unit_zero (S := S1x128x2048) hz3,
    View.ld_unit_zero (S := S1024x2048) hz2]

/-- and the output block is that accumulator under a leading unit axis. -/
theorem out_C (c : Dev nD) (i : grid0.Coords) (arg3 : Memref sig .tc .vmem S1x1024x2048 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x128x2048 .bf16) (harg6 : arg6.IsWhole) (arg7 : Memref sig .tc .vmem S1x1024x2048 .f32) (harg7 : arg7.IsWhole) (arg8 : Memref sig .tc .vmem S1024x2048 .f32) (harg8 : arg8.IsWhole) (hc0 : ¬cond0_0 i) (hc1 : cond0_1 i)
    (x0 : Vec F S1x1024x2048 .bf16) (x1 : Vec F S1x2048x128 .bf16) (x2 : Vec F S1x2048x128 .bf16) (x3 : Vec F S1x128x2048 .bf16) (xs0 : Vec F S1024x2048 .f32) :
    out0_C_4 c i arg3 harg3 arg4 harg4 arg5 harg5 arg6 harg6 arg7 harg7 arg8 harg8 hc0 hc1 x0 x1 x2 x3 xs0 = k0_pay3 (k0_pay2 x0 x1 x2 xs0 x3) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1x1024x2048) hz3, View.readCov_unit_zero (S := S1024x2048) _ hz2]
  simp only [View.readAt_eq_ld, harg3.read_unread, harg4.read_unread, harg5.read_unread, harg6.read_unread, harg8.read_unread,
    View.ld_unit_zero (S := S1x1024x2048) hz3, View.ld_unit_zero (S := S1x2048x128) hz3, View.ld_unit_zero (S := S1x128x2048) hz3,
    View.ld_unit_zero (S := S1024x2048) hz2]

end Cert.KernelIdeal.Cases

end
-- ==== Proof.Chain.lean ====
/-
  The accumulator across the grid, over the extended reals.

  The grid is (expert, token tile, inter tile) = (8, 2, 44), the inter tile innermost: point `t` is expert `t / 88`,
  token tile `t / 44 % 2`, inter tile `t % 44`. At that point the token block holds tokens
  `(t / 44 % 2) * 1024 + p` of the expert, the gate and up blocks hold inter positions `(t % 44) * 128 + j`, and the down
  block the same inter rows. So the tile's product is the specification's `tile`, and, by induction on the point, the
  accumulator after point `t` holds the partial sum over the inter tiles `0 … t % 44`.
-/
import proofs.«145962_j30279519436987_2_alg».proof.Proof.Spec
import proofs.«145962_j30279519436987_2_alg».proof.Proof.Payload
import proofs.«145962_j30279519436987_2_alg».proof.Proof.Cases

noncomputable section

open Idealize.ShloMosaic Idealize.ShloMosaic.TcCoe Idealize.SL.Sem Idealize.ShloMosaic.ValueIdx

namespace Cert.KernelIdeal.Chain

open Cert.KernelIdeal Cert.KernelIdeal.Gen Cert.MlpSpec

variable (m : (ℓ : Loc nD τ sig) → Buf (Elt Ideal) ℓ)

/-- The token array, and the padded gate, up and down weight arrays, as the kernel's region finds them. -/
abbrev XA (c : Dev nD) : SX.Idx → EReal := V m c main_v1
abbrev GA (c : Dev nD) : SW.Idx → EReal := V m c main_v3
abbrev UA (c : Dev nD) : SW.Idx → EReal := V m c main_v5
abbrev DA (c : Dev nD) : SD.Idx → EReal := V m c main_v7

/-- The printed index maps at point `t`, decided over the grid. -/
theorem idx_facts : ∀ t : Fin cfg0.N,
    win0_0.index t (0 : Fin 3) = t.val / 88 ∧ win0_0.index t (1 : Fin 3) = t.val / 44 % 2 ∧ win0_0.index t (2 : Fin 3) = 0
    ∧ win0_1.index t (0 : Fin 3) = t.val / 88 ∧ win0_1.index t (1 : Fin 3) = 0 ∧ win0_1.index t (2 : Fin 3) = t.val % 44
    ∧ win0_2.index t (0 : Fin 3) = t.val / 88 ∧ win0_2.index t (1 : Fin 3) = 0 ∧ win0_2.index t (2 : Fin 3) = t.val % 44
    ∧ win0_3.index t (0 : Fin 3) = t.val / 88 ∧ win0_3.index t (1 : Fin 3) = t.val % 44 ∧ win0_3.index t (2 : Fin 3) = 0
    ∧ win0_4.index t (0 : Fin 3) = t.val / 88 ∧ win0_4.index t (1 : Fin 3) = t.val / 44 % 2 ∧ win0_4.index t (2 : Fin 3) = 0 :=
  (by decide +kernel : ∀ t : Fin grid0.N, _)

/-- The token block at point `t`, at token `p` of the block and hidden position `k`. -/
theorem blk_x (c : Dev nD) (t : Fin cfg0.N) (p : Fin 1024) (k : Fin 2048) :
    (iblk m c 0 t : Vec Ideal S1x1024x2048 .bf16) (ix3 (0 : Fin 1) p k)
      = XA m c (iX (t.val / 88) (t.val / 44 % 2 * 1024 + p.val) k.val) := by
  obtain ⟨e0, e1, e2, -⟩ := idx_facts t
  have hN : t.val < 704 := lt_of_lt_of_eq t.isLt (show cfg0.N = 704 from N_0)
  show V m c main_v1 (((cfg0.win 0).blk t).view.emb (ix3 (0 : Fin 1) p k)) = V m c main_v1 _
  refine congrArg (V m c main_v1) (funext fun a => Fin.ext ?_)
  match a with
  | ⟨0, _⟩ => show win0_0.index t (0 : Fin 3) * 1 + 1 * 0 = t.val / 88 % 8; omega
  | ⟨1, _⟩ => show win0_0.index t (1 : Fin 3) * 1024 + 1 * p.val = (t.val / 44 % 2 * 1024 + p.val) % 2048; have := p.isLt; omega
  | ⟨2, _⟩ => show win0_0.index t (2 : Fin 3) * 2048 + 1 * k.val = k.val % 2048; have := k.isLt; omega

/-- The gate block at point `t`, at hidden position `k` and position `j` of the tile. -/
theorem blk_g (c : Dev nD) (t : Fin cfg0.N) (k : Fin 2048) (j : Fin 128) :
    (iblk m c 1 t : Vec Ideal S1x2048x128 .bf16) (ix3 (0 : Fin 1) k j)
      = GA m c (iW (t.val / 88) k.val (t.val % 44 * 128 + j.val)) := by
  obtain ⟨-, -, -, e0, e1, e2, -⟩ := idx_facts t
  have hN : t.val < 704 := lt_of_lt_of_eq t.isLt (show cfg0.N = 704 from N_0)
  show V m c main_v3 (((cfg0.win 1).blk t).view.emb (ix3 (0 : Fin 1) k j)) = V m c main_v3 _
  refine congrArg (V m c main_v3) (funext fun a => Fin.ext ?_)
  match a with
  | ⟨0, _⟩ => show win0_1.index t (0 : Fin 3) * 1 + 1 * 0 = t.val / 88 % 8; omega
  | ⟨1, _⟩ => show win0_1.index t (1 : Fin 3) * 2048 + 1 * k.val = k.val % 2048; have := k.isLt; omega
  | ⟨2, _⟩ => show win0_1.index t (2 : Fin 3) * 128 + 1 * j.val = (t.val % 44 * 128 + j.val) % 5632; have := j.isLt; omega

/-- The up block at point `t`. -/
theorem blk_u (c : Dev nD) (t : Fin cfg0.N) (k : Fin 2048) (j : Fin 128) :
    (iblk m c 2 t : Vec Ideal S1x2048x128 .bf16) (ix3 (0 : Fin 1) k j)
      = UA m c (iW (t.val / 88) k.val (t.val % 44 * 128 + j.val)) := by
  obtain ⟨-, -, -, -, -, -, e0, e1, e2, -⟩ := idx_facts t
  have hN : t.val < 704 := lt_of_lt_of_eq t.isLt (show cfg0.N = 704 from N_0)
  show V m c main_v5 (((cfg0.win 2).blk t).view.emb (ix3 (0 : Fin 1) k j)) = V m c main_v5 _
  refine congrArg (V m c main_v5) (funext fun a => Fin.ext ?_)
  match a with
  | ⟨0, _⟩ => show win0_2.index t (0 : Fin 3) * 1 + 1 * 0 = t.val / 88 % 8; omega
  | ⟨1, _⟩ => show win0_2.index t (1 : Fin 3) * 2048 + 1 * k.val = k.val % 2048; have := k.isLt; omega
  | ⟨2, _⟩ => show win0_2.index t (2 : Fin 3) * 128 + 1 * j.val = (t.val % 44 * 128 + j.val) % 5632; have := j.isLt; omega

/-- The down block at point `t`, at position `j` of the tile and hidden position `h`. -/
theorem blk_d (c : Dev nD) (t : Fin cfg0.N) (j : Fin 128) (h : Fin 2048) :
    (iblk m c 3 t : Vec Ideal S1x128x2048 .bf16) (ix3 (0 : Fin 1) j h)
      = DA m c (iD (t.val / 88) (t.val % 44 * 128 + j.val) h.val) := by
  obtain ⟨-, -, -, -, -, -, -, -, -, e0, e1, e2, -⟩ := idx_facts t
  have hN : t.val < 704 := lt_of_lt_of_eq t.isLt (show cfg0.N = 704 from N_0)
  show V m c main_v7 (((cfg0.win 3).blk t).view.emb (ix3 (0 : Fin 1) j h)) = V m c main_v7 _
  refine congrArg (V m c main_v7) (funext fun a => Fin.ext ?_)
  match a with
  | ⟨0, _⟩ => show win0_3.index t (0 : Fin 3) * 1 + 1 * 0 = t.val / 88 % 8; omega
  | ⟨1, _⟩ => show win0_3.index t (1 : Fin 3) * 128 + 1 * j.val = (t.val % 44 * 128 + j.val) % 5632; have := j.isLt; omega
  | ⟨2, _⟩ => show win0_3.index t (2 : Fin 3) * 2048 + 1 * h.val = h.val % 2048; have := h.isLt; omega

/-- A row of the token block times a column of the gate block, at point `t`, is the specification's projection. -/
theorem rowDot_g (c : Dev nD) (t : Fin cfg0.N) (p : Fin 1024) (j : Fin 128) :
    Body.rowDot (iblk m c 0 t) (iblk m c 1 t) p j
      = proj (XA m c) (GA m c) (t.val / 88) (t.val / 44 % 2 * 1024 + p.val) (t.val % 44 * 128 + j.val) := by
  unfold Body.rowDot proj
  exact Finset.sum_congr rfl fun k _ => by rw [blk_x m c t p k, blk_g m c t k j]

/-- The same for the up block. -/
theorem rowDot_u (c : Dev nD) (t : Fin cfg0.N) (p : Fin 1024) (j : Fin 128) :
    Body.rowDot (iblk m c 0 t) (iblk m c 2 t) p j
      = proj (XA m c) (UA m c) (t.val / 88) (t.val / 44 % 2 * 1024 + p.val) (t.val % 44 * 128 + j.val) := by
  unfold Body.rowDot proj
  exact Finset.sum_congr rfl fun k _ => by rw [blk_x m c t p k, blk_u m c t k j]

/-- The tile's product at point `t`, read through the blocks, is the specification's tile. -/
theorem tile_blk (c : Dev nD) (t : Fin cfg0.N) (p : Fin 1024) (h : Fin 2048) :
    ∑ j : Fin 128, Body.swi (iblk m c 0 t) (iblk m c 1 t) (iblk m c 2 t) p j
        * (iblk m c 3 t : Vec Ideal S1x128x2048 .bf16) (ix3 (0 : Fin 1) j h)
      = tile (XA m c) (GA m c) (UA m c) (DA m c) (t.val / 88) (t.val / 44 % 2 * 1024 + p.val) (t.val % 44) h.val := by
  unfold tile Body.swi act
  refine Finset.sum_congr rfl fun j _ => ?_
  rw [blk_d m c t j h, rowDot_g m c t p j, rowDot_u m c t p j]

/-- What the accumulator holds after a point at the first inter tile, -/
theorem scr_A (c : Dev nD) (t : Fin cfg0.N) (h0 : t.val % 44 = 0) (h1 : ¬t.val % 44 = 43) :
    (outsAt0 m c t.val t.isLt).2 = k0_pay2 (iblk m c 0 t) (iblk m c 1 t) (iblk m c 2 t) (k0_pay1 (F := Ideal)) (iblk m c 3 t) :=
  by
  rw [outsAt0_A m c t h0 h1]
  dsimp only
  exact Cases.sout_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- at a middle one, -/
theorem scr_B (c : Dev nD) (t : Fin cfg0.N) (h0 : ¬t.val % 44 = 0) (h1 : ¬t.val % 44 = 43) :
    (outsAt0 m c t.val t.isLt).2 = k0_pay2 (iblk m c 0 t) (iblk m c 1 t) (iblk m c 2 t) (outsAt0 m c (t.val - 1) (Nat.lt_of_le_of_lt (Nat.sub_le _ _) t.isLt)).2 (iblk m c 3 t) :=
  by
  rw [outsAt0_B m c t h0 h1]
  dsimp only
  exact Cases.sout_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)).2

/-- and at the last; -/
theorem scr_C (c : Dev nD) (t : Fin cfg0.N) (h0 : ¬t.val % 44 = 0) (h1 : t.val % 44 = 43) :
    (outsAt0 m c t.val t.isLt).2 = k0_pay2 (iblk m c 0 t) (iblk m c 1 t) (iblk m c 2 t) (outsAt0 m c (t.val - 1) (Nat.lt_of_le_of_lt (Nat.sub_le _ _) t.isLt)).2 (iblk m c 3 t) :=
  by
  rw [outsAt0_C m c t h0 h1]
  dsimp only
  exact Cases.sout_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2

/-- there the output block is that accumulator under a leading unit axis. -/
theorem out_C (c : Dev nD) (t : Fin cfg0.N) (h0 : ¬t.val % 44 = 0) (h1 : t.val % 44 = 43) :
    (outsAt0 m c t.val t.isLt).1 = k0_pay3 (outsAt0 m c t.val t.isLt).2 := by
  rw [scr_C m c t h0 h1, outsAt0_C m c t h0 h1]
  dsimp only
  exact Cases.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2

/-- THE ACCUMULATOR after point `n`: the partial sum over the inter tiles `0 … n % 44`, for the point's expert and tokens. -/
theorem acc_eq (c : Dev nD) : ∀ (n : ℕ) (hn : n < cfg0.N) (p : Fin 1024) (h : Fin 2048),
    ((outsAt0 m c n hn).2 : Vec Ideal S1024x2048 .f32) (ix2 p h)
      = upto (XA m c) (GA m c) (UA m c) (DA m c) (n / 88) (n / 44 % 2 * 1024 + p.val) (n % 44) h.val := by
  intro n
  induction n using Nat.strong_induction_on with
  | _ n ih =>
    intro hn p h
    have hN : n < 704 := lt_of_lt_of_eq hn (show cfg0.N = 704 from N_0)
    by_cases h0 : n % 44 = 0
    · have h1 : ¬n % 44 = 43 := by omega
      have e := scr_A m c ⟨n, hn⟩ h0 h1
      rw [show (outsAt0 m c n hn).2 = _ from e,
        Body.pay2_apply (iblk m c 0 ⟨n, hn⟩) (iblk m c 1 ⟨n, hn⟩) (iblk m c 2 ⟨n, hn⟩) _ (iblk m c 3 ⟨n, hn⟩) p h,
        Body.pay1_apply, zero_add, tile_blk m c ⟨n, hn⟩ p h, h0, upto_zero]
    · have hpos : 0 < n := by omega
      have hprev : n - 1 < n := by omega
      have hd1 : (n - 1) / 88 = n / 88 := by omega
      have hd2 : (n - 1) / 44 = n / 44 := by omega
      obtain ⟨q, hq⟩ : ∃ q, n % 44 = q + 1 := ⟨n % 44 - 1, by omega⟩
      have hd3 : (n - 1) % 44 = q := by omega
      have e : (outsAt0 m c n hn).2 = k0_pay2 (iblk m c 0 ⟨n, hn⟩) (iblk m c 1 ⟨n, hn⟩) (iblk m c 2 ⟨n, hn⟩)
          (outsAt0 m c (n - 1) (Nat.lt_of_le_of_lt (Nat.sub_le _ _) hn)).2 (iblk m c 3 ⟨n, hn⟩) := by
        by_cases h1 : n % 44 = 43
        · exact scr_C m c ⟨n, hn⟩ h0 h1
        · exact scr_B m c ⟨n, hn⟩ h0 h1
      rw [e, Body.pay2_apply (iblk m c 0 ⟨n, hn⟩) (iblk m c 1 ⟨n, hn⟩) (iblk m c 2 ⟨n, hn⟩) _ (iblk m c 3 ⟨n, hn⟩) p h,
        ih (n - 1) hprev _ p h, tile_blk m c ⟨n, hn⟩ p h, hd1, hd2, hd3, hq, upto_succ]

end Cert.KernelIdeal.Chain

end
-- ==== Proof.Final.lean ====
/-
  The kernel's result array.

  The output block of (expert, token tile) is written back once, after the last inter tile, and holds the accumulator:
  the sum over all 44 tiles. The blocks of the 8 * 2 (expert, token tile) pairs tile the [8, 2048, 2048] result, so the
  array ends at `G8`: at (e, t, h) the sum over all inter tiles for token `t` of expert `e`. The last host operation
  reshapes it to [16384, 2048].
-/
import proofs.«145962_j30279519436987_2_alg».proof.Proof.Chain
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.MlpSpec Cert.KernelIdeal.Chain

variable (m : (ℓ : Loc nD τ sig) → Buf (Elt Ideal) ℓ) (ρ : Dev nD → PrngReg)

/-- The region's result: at (e, t, h) the sum over all 44 inter tiles. -/
def G8 (c : Dev nD) : S8x2048x2048.Idx → EReal :=
  fun i => upto (XA m c) (GA m c) (UA m c) (DA m c) (i 0).val (i 1).val 43 (i 2).val

/-- What a flushing point writes back is its block of `G8`. -/
theorem flushed_eq (c : Dev nD) (t : Fin cfg0.N) (hf : (cfg0.win 4).flush t = true) :
    (dats m 0 c).flushed 4 t = ((cfg0.win 4).blk t).view.read (Elt Ideal) (G8 m c) := by
  have h43 : t.val % 44 = 43 := (flush0_4 t).mp hf
  have h0 : ¬t.val % 44 = 0 := by omega
  obtain ⟨-, -, -, -, -, -, -, -, -, -, -, -, e0, e1, e2⟩ := idx_facts t
  have hN : t.val < 704 := lt_of_lt_of_eq t.isLt (show cfg0.N = 704 from N_0)
  show (cfg0.win 4).cut (grid0.coords t) ((dats m 0 c).after 4 t) = _
  rw [after0_4, out_C m c t h0 h43]
  funext y
  show k0_pay3 (outsAt0 m c t.val t.isLt).2 y = G8 m c (((cfg0.win 4).blk t).view.emb y)
  have hy : (y : S1x1024x2048.Idx) = ix3 (n0 := 1) (n1 := 1024) (n2 := 2048) (y 0) (y 1) (y 2) := eq_ix3 y
  have h1 : (y 1).val < 1024 := (y 1).isLt
  have h2 : (y 2).val < 2048 := (y 2).isLt
  have hu : (y 0).val < 1 := (y 0).isLt
  have he : ((cfg0.win 4).blk t).view.emb y
      = (ix3 (⟨t.val / 88, by omega⟩ : Fin 8) (⟨t.val / 44 % 2 * 1024 + (y 1).val, by omega⟩ : Fin 2048) (⟨(y 2).val, h2⟩ : Fin 2048) : S8x2048x2048.Idx) := by
    funext a; apply Fin.ext
    match a with
    | ⟨0, _⟩ => show win0_4.index t (0 : Fin 3) * 1 + 1 * (y 0).val = t.val / 88; omega
    | ⟨1, _⟩ => show win0_4.index t (1 : Fin 3) * 1024 + 1 * (y 1).val = t.val / 44 % 2 * 1024 + (y 1).val; omega
    | ⟨2, _⟩ => show win0_4.index t (2 : Fin 3) * 2048 + 1 * (y 2).val = (y 2).val; omega
  rw [he]
  refine ((congrArg (k0_pay3 (outsAt0 m c t.val t.isLt).2) hy).trans (Body.pay3_apply _ (y 0) (y 1) (y 2))).trans ?_
  rw [acc_eq m c t.val t.isLt (y 1) (y 2), h43]
  rfl

/-- An index of the result is in point `t`'s block iff each coordinate is in the block's range. -/
theorem mem_blk (t : Fin cfg0.N) (i : S8x2048x2048.Idx) :
    i ∈ ((cfg0.win 4).blk t).view.set ↔ ∀ a : Fin 3, win0_4.index t a * S1x1024x2048.size a ≤ (i a).val
      ∧ (i a).val < win0_4.index t a * S1x1024x2048.size a + S1x1024x2048.size a := by
  show i ∈ ((View.whole main_v8).slice (win0_4.rect t)).set ↔ _
  rw [View.set_slice_whole, Rect.mem_set_unit]
  exact Iff.rfl

/-- Every index of the result is in the block some point writes back: row `i 1` of expert `i 0` at the last inter tile
    of token tile `i 1 / 1024`. -/
theorem cover (i : S8x2048x2048.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  have hN : cfg0.N = 704 := N_0
  obtain ⟨n, hn⟩ : ∃ n, n = ((i 0).val * 2 + (i 1).val / 1024) * 44 + 43 := ⟨_, rfl⟩
  have hlt : n < cfg0.N := by rw [hN]; omega
  refine ⟨⟨n, hlt⟩, (flush0_4 _).mpr (by show n % 44 = 43; omega), ?_⟩
  obtain ⟨-, -, -, -, -, -, -, -, -, -, -, -, e0, e1, e2⟩ := idx_facts ⟨n, hlt⟩
  have e0' : win0_4.index ⟨n, hlt⟩ (0 : Fin 3) = n / 88 := e0
  have e1' : win0_4.index ⟨n, hlt⟩ (1 : Fin 3) = n / 44 % 2 := e1
  have e2' : win0_4.index ⟨n, hlt⟩ (2 : Fin 3) = 0 := e2
  rw [mem_blk]
  intro a
  match a with
  | ⟨0, _⟩ =>
    show win0_4.index ⟨n, hlt⟩ (0 : Fin 3) * 1 ≤ (i 0).val ∧ (i 0).val < win0_4.index ⟨n, hlt⟩ (0 : Fin 3) * 1 + 1
    omega
  | ⟨1, _⟩ =>
    show win0_4.index ⟨n, hlt⟩ (1 : Fin 3) * 1024 ≤ (i 1).val ∧ (i 1).val < win0_4.index ⟨n, hlt⟩ (1 : Fin 3) * 1024 + 1024
    omega
  | ⟨2, _⟩ =>
    show win0_4.index ⟨n, hlt⟩ (2 : Fin 3) * 2048 ≤ (i 2).val ∧ (i 2).val < win0_4.index ⟨n, hlt⟩ (2 : Fin 3) * 2048 + 2048
    omega

/-- The result array after the region. -/
theorem final (c : Dev nD) : (dats m 0 c).arrAt 4 cfg0.N = G8 m c :=
  (dats m 0 c).arrAt_eq_of_cover 4 (G8 m c) (flushed_eq m c) cover

/-- The last host operation reshapes it. -/
theorem tail (c : Dev nD) :
    Pipeline.afterTail₀ cfgs (dats m) 0 (V0 m) [hostOps1] c main_v9
      = shapeCast S16384x2048 (G8 m c) shapeCasts_S8x2048x2048_S16384x2048 := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = G8 m c := (Pipeline.withArrays_arr spec0 launch0.win.arr_inj c _ _ 4).trans (final m c)
  rw [hw]
  rfl

end Cert.KernelIdeal.Final

end
-- ==== Proof.Bridge.lean ====
/-
  The kernel's sum over padded inter tiles is the reference's sum.

  The kernel multiplies on arrays it prepares first: the tokens regrouped by expert, and the gate, up and down weights
  padded with zeros along the inter axis from 5504 to 5632 positions (the change of float format is the identity on
  extended reals). On an unpadded position the padded weights are the weights, so the projections, and with them the
  activation, are the reference's: the reference spells the logistic function `1 / (1 + exp (-g))`, which is what
  `logistic g` is. On a padded position the down weight is the padding value, the integer zero converted, which is `0`;
  the position adds nothing. So the sum over all 44 tiles is the reference's sum over the 5504 positions.
-/
import proofs.«145962_j30279519436987_2_alg».proof.Proof.Spec
import proofs.«145962_j30279519436987_2_alg».proof.Proof.Gen.ReferenceIdeal.Read
import Idealize.ShloMosaic.Lib.KernelVsHost

noncomputable section

namespace Cert.Bridge

open Cert.ReferenceIdeal Cert.ReferenceIdeal.Read Cert.MlpSpec Idealize.ShloMosaic Idealize.ShloMosaic.ValueIdx

variable (x0 : S16384x2048.Idx → EReal) (x1 x2 : S8x2048x5504.Idx → EReal) (x3 : S8x5504x2048.Idx → EReal)
variable (hc : S16384x2048.ShapeCasts SX)
  (hp : S8x2048x5504.Pads (![0, 0, 0] : Fin 3 → Nat) ![0, 0, 128] ![0, 0, 0] SW)
  (hq : S8x5504x2048.Pads (![0, 0, 0] : Fin 3 → Nat) ![0, 128, 0] ![0, 0, 0] SD) (hu : 0 < S_.numel)

/-- The padding value: the integer zero, converted. -/
abbrev zpad : S_.Idx → EReal := sitofp (F := Ideal) .bf16 (constantI S_ 32 0#32)

/-- The tokens regrouped by expert. -/
def XB : SX.Idx → EReal := shapeCast SX x0 hc
/-- A gate or up weight array padded along the inter axis. -/
def WP (w : S8x2048x5504.Idx → EReal) : SW.Idx → EReal := pad SW ![0, 0, 0] ![0, 0, 128] ![0, 0, 0] w zpad hp hu
/-- The down weight array padded along the inter axis. -/
def DP : SD.Idx → EReal := pad SD ![0, 0, 0] ![0, 128, 0] ![0, 0, 0] x3 zpad hq hu

/-- The padding value is zero. -/
theorem zpad_first : zpad (Shape.Idx.first hu) = 0 := by
  show ((((0#32 : BitVec 32).toInt : ℤ) : ℝ) : EReal) = 0
  simp

/-- The literal one. -/
theorem one_bits : Ideal.ofBits .f32 0x3F800000#32 = (1 : EReal) := by
  simp [Ideal.ofBits, Ideal.ieee, -EReal.coe_mul]; norm_num

/-- A padded row of the down weights is zero. -/
theorem DP_outside (e k h : ℕ) (h1 : 5504 ≤ k) (h2 : k < 5632) : DP x3 hq hu (iD e k h) = 0 := by
  unfold DP
  rw [pad_apply_of_not_inside _ _ _ x3 zpad hq hu (iD e k h) (1 : Fin 3) (by
    show ¬(0 ≤ k % 5632 ∧ (k % 5632 - 0) % (0 + 1) = 0 ∧ (k % 5632 - 0) / (0 + 1) < 5504); omega)]
  exact zpad_first hu

/-- An unpadded row of the padded down weights is the down weights' row. -/
theorem DP_inside (e h : ℕ) (k : Fin 5504) :
    DP x3 hq hu (iD e k.val h)
      = x3 (ix3 (⟨e % 8, Nat.mod_lt _ (by decide)⟩ : Fin 8) k (⟨h % 2048, Nat.mod_lt _ (by decide)⟩ : Fin 2048)) := by
  unfold DP
  exact pad_apply_of_inside _ _ _ x3 zpad hq hu (iD e k.val h) _ (fun a => by
    match a with
    | ⟨0, _⟩ => show e % 8 = 0 + e % 8 * (0 + 1); omega
    | ⟨1, _⟩ => show k.val % 5632 = 0 + k.val * (0 + 1); have := k.isLt; omega
    | ⟨2, _⟩ => show h % 2048 = 0 + h % 2048 * (0 + 1); omega)

/-- An unpadded column of a padded gate or up weight array is the weights' column. -/
theorem WP_inside (w : S8x2048x5504.Idx → EReal) (e h : ℕ) (k : Fin 5504) :
    WP hp hu w (iW e h k.val)
      = w (ix3 (⟨e % 8, Nat.mod_lt _ (by decide)⟩ : Fin 8) (⟨h % 2048, Nat.mod_lt _ (by decide)⟩ : Fin 2048) k) := by
  unfold WP
  exact pad_apply_of_inside _ _ _ w zpad hp hu (iW e h k.val) _ (fun a => by
    match a with
    | ⟨0, _⟩ => show e % 8 = 0 + e % 8 * (0 + 1); omega
    | ⟨1, _⟩ => show h % 2048 = 0 + h % 2048 * (0 + 1); omega
    | ⟨2, _⟩ => show k.val % 5632 = 0 + k.val * (0 + 1); have := k.isLt; omega)

/-- A projection onto an unpadded inter position is the reference's contraction over the hidden axis. -/
theorem proj_eq (w : S8x2048x5504.Idx → EReal) (i : S8x2048x2048.Idx) (k : Fin 5504) :
    proj (XB x0 hc) (WP hp hu w) (i 0).val (i 1).val k.val
      = ∑ kk : Fin 2048, val_main_v0 (F := Ideal) x0 (lidx_main_v1 (lidx_main_v5 i k) kk) * w (ridx_main_v1 (lidx_main_v5 i k) kk) := by
  unfold proj
  refine Finset.sum_congr rfl fun kk _ => ?_
  rw [WP_inside]
  have e1 : iX (i 0).val (i 1).val kk.val = lidx_main_v1 (lidx_main_v5 i k) kk := funext fun a => Fin.ext (by
    match a with
    | ⟨0, _⟩ => exact Nat.mod_eq_of_lt (i 0).isLt
    | ⟨1, _⟩ => exact Nat.mod_eq_of_lt (i 1).isLt
    | ⟨2, _⟩ => exact Nat.mod_eq_of_lt kk.isLt)
  have e2 : (ix3 (⟨(i 0).val % 8, Nat.mod_lt _ (by decide)⟩ : Fin 8) (⟨kk.val % 2048, Nat.mod_lt _ (by decide)⟩ : Fin 2048) k : S8x2048x5504.Idx)
      = ridx_main_v1 (lidx_main_v5 i k) kk := funext fun a => Fin.ext (by
    match a with
    | ⟨0, _⟩ => exact Nat.mod_eq_of_lt (i 0).isLt
    | ⟨1, _⟩ => exact Nat.mod_eq_of_lt kk.isLt
    | ⟨2, _⟩ => rfl)
  rw [e1, e2]
  rfl

/-- The activation at an unpadded inter position is the reference's. -/
theorem act_eq (i : S8x2048x2048.Idx) (k : Fin 5504) :
    act (XB x0 hc) (WP hp hu x1) (WP hp hu x2) (i 0).val (i 1).val k.val
      = val_main_v4 (F := Ideal) x0 x1 x2 (lidx_main_v5 i k) := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, val_main_v1_apply, val_main_v2_apply]
  unfold act
  rw [proj_eq x0 hc hp hu x1 i k, proj_eq x0 hc hp hu x2 i k]
  simp only [Ideal.ofBits_def, one_bits]
  rfl

/-- THE BRIDGE: the sum over all 44 padded tiles is the reference's contraction over the 5504 inter positions. -/
theorem result_eq :
    (fun i : S8x2048x2048.Idx => upto (XB x0 hc) (WP hp hu x1) (WP hp hu x2) (DP x3 hq hu) (i 0).val (i 1).val 43 (i 2).val)
      = val_main_v5 (F := Ideal) x0 x1 x2 x3 := by
  funext i
  rw [val_main_v5_apply, upto_last _ _ _ _ _ _ _ (fun k h1 h2 => DP_outside x3 hq hu _ k _ h1 h2)]
  refine Finset.sum_congr rfl fun k _ => ?_
  rw [act_eq x0 x1 x2 hc hp hu i k, DP_inside x3 hq hu (i 0).val (i 2).val k]
  have e : (ix3 (⟨(i 0).val % 8, Nat.mod_lt _ (by decide)⟩ : Fin 8) k (⟨(i 2).val % 2048, Nat.mod_lt _ (by decide)⟩ : Fin 2048) : S8x5504x2048.Idx)
      = ridx_main_v5 i k := funext fun a => Fin.ext (by
    match a with
    | ⟨0, _⟩ => exact Nat.mod_eq_of_lt (i 0).isLt
    | ⟨1, _⟩ => rfl
    | ⟨2, _⟩ => exact Nat.mod_eq_of_lt (i 2).isLt)
  rw [e]

end Cert.Bridge

end
-- ==== Proof.KernelValue.lean ====
/-
  The kernel's run, read: its result as a function of its arguments.

  Before the region the host regroups the tokens by expert and pads the three weight arrays with zeros along the inter
  axis; those are the arrays the region finds. With them the region's result is the reference's contraction
  (the bridge), and the last host operation reshapes it to [16384, 2048].
-/
import proofs.«145962_j30279519436987_2_alg».proof.Proof.Final
import proofs.«145962_j30279519436987_2_alg».proof.Proof.Bridge

noncomputable section

open Idealize.ShloMosaic Idealize.ShloMosaic.TcCoe Idealize.SL.Sem Idealize.ShloMosaic.StableHlo

namespace Cert.KernelIdeal.KernelValue

open Cert.KernelIdeal Cert.KernelIdeal.Gen Cert.MlpSpec Cert.KernelIdeal.Chain Cert.KernelIdeal.Final

variable (m : (ℓ : Loc nD τ sig) → Buf (Elt Ideal) ℓ) (ρ : Dev nD → PrngReg)

/-- The token array the region finds: the first argument regrouped by expert. -/
theorem XA_eq (c : Dev nD) :
    XA m c = Cert.Bridge.XB (m ((c : Thread nD τ).loc main_arg0)) shapeCasts_S16384x2048_S8x2048x2048 := by
  show (V m c main_v1 : S8x2048x2048.Idx → EReal) = _
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The gate weights the region finds: the second argument padded along the inter axis. -/
theorem GA_eq (c : Dev nD) :
    GA m c = Cert.Bridge.WP pads_S8x2048x5504_S8x2048x5632_000_000_01280 h_S_ (m ((c : Thread nD τ).loc main_arg1)) := by
  show (V m c main_v3 : S8x2048x5632.Idx → EReal) = _
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The up weights the region finds: the third argument padded along the inter axis. -/
theorem UA_eq (c : Dev nD) :
    UA m c = Cert.Bridge.WP pads_S8x2048x5504_S8x2048x5632_000_000_01280 h_S_ (m ((c : Thread nD τ).loc main_arg2)) := by
  show (V m c main_v5 : S8x2048x5632.Idx → EReal) = _
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The down weights the region finds: the fourth argument padded along the inter axis. -/
theorem DA_eq (c : Dev nD) :
    DA m c = Cert.Bridge.DP (m ((c : Thread nD τ).loc main_arg3)) pads_S8x5504x2048_S8x5632x2048_000_01280_000 h_S_ := by
  show (V m c main_v7 : S8x5632x2048.Idx → EReal) = _
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The region's result is the reference's contraction of the arguments. -/
theorem G8_eq (c : Dev nD) :
    G8 m c = Cert.ReferenceIdeal.Read.val_main_v5 (F := Ideal) (m ((c : Thread nD τ).loc main_arg0)) (m ((c : Thread nD τ).loc main_arg1)) (m ((c : Thread nD τ).loc main_arg2)) (m ((c : Thread nD τ).loc main_arg3)) := by
  unfold G8
  rw [XA_eq m c, GA_eq m c, UA_eq m c, DA_eq m c]
  exact Cert.Bridge.result_eq _ _ _ _ _ _ _ _

/-- THE RUN: every weakly fair execution terminates with the result at the reshaped contraction of the arguments, the
    arguments unchanged. -/
theorem run : θ_run defs (onTc (τ := τ) (main (F := Ideal))) ⟨m, fun _ => 0, ρ⟩ fun r => ∀ c : Dev nD,
      r.2.mem ((c.tc : Thread nD τ).loc main_v9)
        = shapeCast S16384x2048 (Cert.ReferenceIdeal.Read.val_main_v5 (F := Ideal) (m ((c : Thread nD τ).loc main_arg0)) (m ((c : Thread nD τ).loc main_arg1)) (m ((c : Thread nD τ).loc main_arg2)) (m ((c : Thread nD τ).loc main_arg3)))
            shapeCasts_S8x2048x2048_S16384x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v9 (Pipeline.mem_restRefs_of main_v9 (by decide) (by decide))).trans (tail m c)).trans
        (by rw [G8_eq m c]),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.lean ====
/-
  An expert MLP over tokens grouped by expert, against its reference, over the extended reals.

  Both programs compute, for token `t` of expert `e` and hidden position `h`,
  `∑ k, ((g k * logistic (g k)) * u k) * down e k h` over the 5504 inter positions `k`, where
  `g k = ∑ j, x e t j * gate e j k` and `u k = ∑ j, x e t j * up e j k`. The reference contracts whole arrays. The kernel
  pads the inter axis with zeros to 5632 = 44 * 128 positions and, for each block of 1024 tokens, adds the 44 tiles of
  128 positions one after the other into an accumulator it zeroes at the first tile and copies out after the last.
  A padded position multiplies the activation by a zero row of the down weights and adds nothing; addition of extended
  reals is commutative and associative, so the tile-by-tile sum is the reference's sum. Changes of float format are the
  identity on extended reals, and the kernel's `logistic` is the reference's `1 / (1 + exp (-g))`. No finiteness of the
  inputs is used.

  The three frames are the generated ones (the reference's is its generated run with the result dropped); the
  idealization rewrote nothing, so `preserves` is trivial.
-/
import proofs.«145962_j30279519436987_2_alg».proof.Defs
import proofs.«145962_j30279519436987_2_alg».proof.Proof.Gen.Kernel
import proofs.«145962_j30279519436987_2_alg».proof.Proof.Gen.Kernel.Frame
import proofs.«145962_j30279519436987_2_alg».proof.Proof.Gen.KernelIdeal
import proofs.«145962_j30279519436987_2_alg».proof.Proof.Gen.KernelIdeal.Frame
import proofs.«145962_j30279519436987_2_alg».proof.Proof.Gen.ReferenceIdeal
import proofs.«145962_j30279519436987_2_alg».proof.Proof.Gen.ReferenceIdeal.Run
import proofs.«145962_j30279519436987_2_alg».proof.Proof.Gen.ReferenceIdeal.Read
import proofs.«145962_j30279519436987_2_alg».proof.Proof.Gen.Pre_finite_inputs
import proofs.«145962_j30279519436987_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the reshaped contraction of its arguments, and the reference's at the same term
    of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
